-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S128x512x512 : Shape := ⟨3, ![128, 512, 512]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel

variable [Facts]

def fn {F : FTy → Type} [FloatOps F] (main_arg0 : FVec F S128x512x64 .f32) (main_arg1 : FVec F S128x512x64 .f32) (main_arg2 : FVec F S128x512x64 .f32) (main_arg3 : IVec S128x512x512 1) (main_arg4 : IVec S128x512x512 1) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x512x64 .f32 := Host.absf main_arg1
  let main_cst_0 : FVec F S_ .f32 := constant S_ .f32 0x7F800000#32
  let main_v5 : FVec F S128x512x64 .f32 := broadcastInDim S128x512x64 ![] bcast_S_S128x512x64 main_cst_0
  let main_v6 : IVec S128x512x64 1 := cmpf .olt main_v4 main_v5
  let main_c_1 : IVec S_ 1 := constantI S_ 1 1#1
  let main_v7 : IVec S_ 1 := (fun x v => Host.reduce IntOp.andi x v reducesTo_S128x512x64_S_d0_1_2 h_S_) main_v6 main_c_1
  let main_v8 : IVec S_ 1 := andi main_v3 main_v7
  let main_v9 : FVec F S128x512x64 .f32 := Host.absf main_arg2
  let main_cst_2 : FVec F S_ .f32 := constant S_ .f32 0x7F800000#32
  let main_v10 : FVec F S128x512x64 .f32 := broadcastInDim S128x512x64 ![] bcast_S_S128x512x64 main_cst_2
  let main_v11 : IVec S128x512x64 1 := cmpf .olt main_v9 main_v10
  let main_c_3 : IVec S_ 1 := constantI S_ 1 1#1
  let main_v12 : IVec S_ 1 := (fun x v => Host.reduce IntOp.andi x v reducesTo_S128x512x64_S_d0_1_2 h_S_) main_v11 main_c_3
  let main_v13 : IVec S_ 1 := andi main_v8 main_v12
  main_v13
-- ==== Kernel.lean ====
abbrev S128x512x64 : Shape := ⟨3, ![128, 512, 64]⟩
abbrev S128x512x512 : Shape := ⟨3, ![128, 512, 512]⟩
abbrev S2x512x64 : Shape := ⟨3, ![2, 512, 64]⟩
abbrev S2x512x512 : Shape := ⟨3, ![2, 512, 512]⟩
abbrev S2x512 : Shape := ⟨2, ![2, 512]⟩
abbrev S2x512x1 : Shape := ⟨3, ![2, 512, 1]⟩

abbrev nBuf : Space → Nat
  | .hbm => 9
  | .vmem => 14
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x64, .f32⟩
  | .hbm, ⟨3, _⟩ => ⟨S128x512x512, .i1⟩
  | .hbm, ⟨4, _⟩ => ⟨S128x512x512, .i1⟩
  | .hbm, ⟨5, _⟩ => ⟨S128x512x512, .i32⟩
  | .hbm, ⟨6, _⟩ => ⟨S128x512x512, .i32⟩
  | .hbm, ⟨7, _⟩ => ⟨S128x512x64, .f32⟩
  | .hbm, ⟨8, _⟩ => ⟨S128x512x512, .f32⟩
  | .local _ .vmem, ⟨0, _⟩ => ⟨S2x512x64, .f32⟩
  | .local _ .vmem, ⟨1, _⟩ => ⟨S2x512x64, .f32⟩
  | .local _ .vmem, ⟨2, _⟩ => ⟨S2x512x64, .f32⟩
  | .local _ .vmem, ⟨3, _⟩ => ⟨S2x512x64, .f32⟩
  | .local _ .vmem, ⟨4, _⟩ => ⟨S2x512x64, .f32⟩
  | .local _ .vmem, ⟨5, _⟩ => ⟨S2x512x64, .f32⟩
  | .local _ .vmem, ⟨6, _⟩ => ⟨S2x512x512, .i32⟩
  | .local _ .vmem, ⟨7, _⟩ => ⟨S2x512x512, .i32⟩
  | .local _ .vmem, ⟨8, _⟩ => ⟨S2x512x512, .i32⟩
  | .local _ .vmem, ⟨9, _⟩ => ⟨S2x512x512, .i32⟩
  | .local _ .vmem, ⟨10, _⟩ => ⟨S2x512x64, .f32⟩
  | .local _ .vmem, ⟨11, _⟩ => ⟨S2x512x64, .f32⟩
  | .local _ .vmem, ⟨12, _⟩ => ⟨S2x512x512, .f32⟩
  | .local _ .vmem, ⟨13, _⟩ => ⟨S2x512x512, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  natLt_1_32 : 1 < 32
  inb_S2x512x64_S2x512x64_0_0_0 : ∀ a, (![0, 0, 0] : Fin 3 → Nat) a + S2x512x64.size a ≤ S2x512x64.size a
  h_S2x512x64 : 0 < S2x512x64.numel
  bitsLt_bf16_f32 : FTy.bits .bf16 < FTy.bits .f32
  inb_S2x512x512_S2x512x512_0_0_0 : ∀ a, (![0, 0, 0] : Fin 3 → Nat) a + S2x512x512.size a ≤ S2x512x512.size a
  h_S2x512x512 : 0 < S2x512x512.numel
  reduces_S2x512x512_S2x512 : S2x512x512.Reduces [2] S2x512
  shapeCasts_S2x512_S2x512x1 : S2x512.ShapeCasts S2x512x1
  broadcasts_S2x512x1_S2x512x512 : S2x512x1.Broadcasts S2x512x512
  dot_S2x512x64_S2x512x64_S2x512x512_2_2_1_1_0_0_wf : DotDims.WF S2x512x64 S2x512x64 S2x512x512 [2] [2] [1] [1] [0] [0]
  dot_S2x512x512_S2x512x64_S2x512x64_2_1_1_2_0_0_wf : DotDims.WF S2x512x512 S2x512x64 S2x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x64.size a ≤ S128x512x64.size a
  hwx0_0 : ∀ i : grid0.Coords, EltTy.bits .f32 = 32 ∨ (Rect.block (s := S128x512x64) S2x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x64.size a ≤ S128x512x64.size a
  hwx0_1 : ∀ i : grid0.Coords, EltTy.bits .f32 = 32 ∨ (Rect.block (s := S128x512x64) S2x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x64.size a ≤ S128x512x64.size a
  hwx0_2 : ∀ i : grid0.Coords, EltTy.bits .f32 = 32 ∨ (Rect.block (s := S128x512x64) S2x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S128x512x512.size a
  hwx0_3 : ∀ i : grid0.Coords, EltTy.bits .i32 = 32 ∨ (Rect.block (s := S128x512x512) S2x512x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S128x512x512.size a
  hwx0_4 : ∀ i : grid0.Coords, EltTy.bits .i32 = 32 ∨ (Rect.block (s := S128x512x512) S2x512x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x64.size a ≤ S128x512x64.size a
  hwx0_5 : ∀ i : grid0.Coords, EltTy.bits .f32 = 32 ∨ (Rect.block (s := S128x512x64) S2x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x512x512.size a ≤ S128x512x512.size a
  hwx0_6 : ∀ i : grid0.Coords, EltTy.bits .f32 = 32 ∨ (Rect.block (s := S128x512x512) S2x512x512.size (cc0_transform_6 i) (hinb0_6 i)).WholeWords (EltTy.packing .f32)

variable [Facts₀]

def dot_S2x512x64_S2x512x64_S2x512x512_2_2_1_1_0_0 : DotDims S2x512x64 S2x512x64 S2x512x512 where
  lhsContracting := [2]
  rhsContracting := [2]
  lhsNonContracting := [1]
  rhsNonContracting := [1]
  lhsBatch := [0]
  rhsBatch := [0]
  wf := dot_S2x512x64_S2x512x64_S2x512x512_2_2_1_1_0_0_wf
def dot_S2x512x512_S2x512x64_S2x512x64_2_1_1_2_0_0 : DotDims S2x512x512 S2x512x64 S2x512x64 where
  lhsContracting := [2]
  rhsContracting := [1]
  lhsNonContracting := [1]
  rhsNonContracting := [2]
  lhsBatch := [0]
  rhsBatch := [0]
  wf := dot_S2x512x512_S2x512x64_S2x512x64_2_1_1_2_0_0_wf

abbrev win0_0 : Pipeline.Window sig grid0 :=
  Pipeline.Window.ofSpec (Memref.whole main_arg0) S2x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512x64 : Shape := ⟨3, ![128, 512, 64]⟩
abbrev S128x512x512 : Shape := ⟨3, ![128, 512, 512]⟩
abbrev S_ : Shape := ⟨0, ![]⟩
abbrev S128x512 : Shape := ⟨2, ![128, 512]⟩
abbrev S128x512x1 : Shape := ⟨3, ![128, 512, 1]⟩

abbrev nBuf : Space → Nat
  | .hbm => 32
  | .vmem => 0
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x64, .f32⟩
  | .hbm, ⟨3, _⟩ => ⟨S128x512x512, .i1⟩
  | .hbm, ⟨4, _⟩ => ⟨S128x512x512, .i1⟩
  | .hbm, ⟨5, _⟩ => ⟨S128x512x512, .f32⟩
  | .hbm, ⟨6, _⟩ => ⟨S_, .f32⟩
  | .hbm, ⟨7, _⟩ => ⟨S128x512x512, .f32⟩
  | .hbm, ⟨8, _⟩ => ⟨S128x512x512, .f32⟩
  | .hbm, ⟨9, _⟩ => ⟨S_, .f32⟩
  | .hbm, ⟨10, _⟩ => ⟨S_, .f32⟩
  | .hbm, ⟨11, _⟩ => ⟨S128x512x512, .f32⟩
  | .hbm, ⟨12, _⟩ => ⟨S128x512x512, .f32⟩
  | .hbm, ⟨13, _⟩ => ⟨S_, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512x1, .f32⟩
  | .hbm, ⟨19, _⟩ => ⟨S128x512x512, .f32⟩
  | .hbm, ⟨20, _⟩ => ⟨S128x512x512, .f32⟩
  | .hbm, ⟨21, _⟩ => ⟨S128x512x512, .f32⟩
  | .hbm, ⟨22, _⟩ => ⟨S_, .f32⟩
  | .hbm, ⟨23, _⟩ => ⟨S128x512, .f32⟩
  | .hbm, ⟨24, _⟩ => ⟨S128x512x1, .f32⟩
  | .hbm, ⟨25, _⟩ => ⟨S128x512x512, .f32⟩
  | .hbm, ⟨26, _⟩ => ⟨S128x512x512, .f32⟩
  | .hbm, ⟨27, _⟩ => ⟨S_, .f32⟩
  | .hbm, ⟨28, _⟩ => ⟨S_, .f32⟩
  | .hbm, ⟨29, _⟩ => ⟨S128x512x512, .f32⟩
  | .hbm, ⟨30, _⟩ => ⟨S128x512x512, .f32⟩
  | .hbm, ⟨31, _⟩ => ⟨S128x512x64, .f32⟩
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S_S128x512x512 : S_.BroadcastsInDim S128x512x512 (![] : Fin 0 → Fin S128x512x512.rank)
  reducesTo_S128x512x512_S128x512_d2 : S128x512x512.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  dot_S128x512x64_S128x512x64_S128x512x512_2_2_1_1_0_0_wf : DotDims.WF S128x512x64 S128x512x64 S128x512x512 [2] [2] [1] [1] [0] [0]
  dot_S128x512x512_S128x512x64_S128x512x64_2_1_1_2_0_0_wf : DotDims.WF S128x512x512 S128x512x64 S128x512x64 [2] [1] [1] [2] [0] [0]

variable [Facts₀]

def dot_S128x512x64_S128x512x64_S128x512x512_2_2_1_1_0_0 : DotDims S128x512x64 S128x512x64 S128x512x512 where
  lhsContracting := [2]
  rhsContracting := [2]
  lhsNonContracting := [1]
  rhsNonContracting := [1]
  lhsBatch := [0]
  rhsBatch := [0]
  wf := dot_S128x512x64_S128x512x64_S128x512x512_2_2_1_1_0_0_wf
def dot_S128x512x512_S128x512x64_S128x512x64_2_1_1_2_0_0 : DotDims S128x512x512 S128x512x64 S128x512x64 where
  lhsContracting := [2]
  rhsContracting := [1]
  lhsNonContracting := [1]
  rhsNonContracting := [2]
  lhsBatch := [0]
  rhsBatch := [0]
  wf := dot_S128x512x512_S128x512x64_S128x512x64_2_1_1_2_0_0_wf

class Facts : Prop extends Facts₀ where

variable [Facts]
-- ==== Proof.Spec.lean ====
/-
  Masked scaled-dot-product attention, one query row at a time, over the exact extended reals.

  For one query row `qr` (64 numbers) against the 512 keys `kb` of its batch element:
    score j   = −∞ where the key mask is set, else (Σ_d qr d · kb j d) · (1/8);
    weight j  = exp (score j − max_j score) / Σ_j' exp (score j' − max_j score), put to 0 where the query mask is set;
    output d  = Σ_j weight j · vb j d.
  The two whole-array functions `attnG` and `outG` read these rows off the argument arrays by coordinates: entry
  (b, i, ·) of the weights depends on row (b, i) of the queries and masks and on batch element b of the keys, and
  entry (b, i, ·) of the output also on batch element b of the values. Nothing here depends on how the batch axis is cut.
-/
import Idealize.ShloMosaic.PureOps.Ideal
import Idealize.ShloMosaic.Lib.ValueIdx

noncomputable section

namespace Cert.Attn

open Idealize.ShloMosaic Idealize.ShloMosaic.ValueIdx

/-- A query row's scores against every key: minus infinity where the key mask is set, else the dot product over the
    head dimension times one eighth. -/
def scoreRow (qr : Fin 64 → EReal) (kb : Fin 512 → Fin 64 → EReal) (kmr : Fin 512 → BitVec 1) (j : Fin 512) : EReal :=
  Scalar.select (kmr j) (Ideal.ofBits .f32 0xFF800000#32) ((∑ d : Fin 64, qr d * kb j d) * Ideal.ofBits .f32 0x3E000000#32)

/-- The largest score of a row, the maximum taken from minus infinity. -/
def rowMax (s : Fin 512 → EReal) : EReal :=
  (Finset.univ : Finset (Fin 512)).fold max (Ideal.ofBits .f32 0xFF800000#32) s

/-- A row's attention weights from its scores: the shifted exponentials over their sum, zero where the query mask is set. -/
def softRow (s : Fin 512 → EReal) (qmr : Fin 512 → BitVec 1) (j : Fin 512) : EReal :=
  Scalar.select (qmr j) (Ideal.ofBits .f32 0x00000000#32)
    (Ideal.div (Ideal.exp (s j - rowMax s)) (∑ j' : Fin 512, Ideal.exp (s j' - rowMax s)))

/-- A query row's attention weights. -/
def attnRow (qr : Fin 64 → EReal) (kb : Fin 512 → Fin 64 → EReal) (kmr qmr : Fin 512 → BitVec 1) : Fin 512 → EReal :=
  softRow (scoreRow qr kb kmr) qmr

/-- A row of the output: the weights against the values. -/
def outRow (w : Fin 512 → EReal) (vb : Fin 512 → Fin 64 → EReal) (d : Fin 64) : EReal :=
  ∑ j : Fin 512, w j * vb j d

/-- The attention weights as one function of the argument arrays, for any number `B` of batch elements. -/
def attnG {B : ℕ} (q k : (⟨3, ![B, 512, 64]⟩ : Shape).Idx → EReal) (km qm : (⟨3, ![B, 512, 512]⟩ : Shape).Idx → BitVec 1) :
    (⟨3, ![B, 512, 512]⟩ : Shape).Idx → EReal := fun i =>
  attnRow (fun d => q (ix3 (i 0) (i 1) d)) (fun j d => k (ix3 (i 0) j d)) (fun j => km (ix3 (i 0) (i 1) j))
    (fun j => qm (ix3 (i 0) (i 1) j)) (i 2)

/-- The attention output as one function of the argument arrays. -/
def outG {B : ℕ} (q k v : (⟨3, ![B, 512, 64]⟩ : Shape).Idx → EReal) (km qm : (⟨3, ![B, 512, 512]⟩ : Shape).Idx → BitVec 1) :
    (⟨3, ![B, 512, 64]⟩ : Shape).Idx → EReal := fun i =>
  outRow (fun j => attnG q k km qm (ix3 (i 0) (i 1) j)) (fun j d => v (ix3 (i 0) j d)) (i 2)

end Cert.Attn

end
-- ==== Proof.LibLastAxis3.lean ====
/-
  Rank-3 arrays reduced along their LAST axis and spread back over it, read at an index given by coordinates:
  a `[a,b]` array cast to `[a,b,1]`, an `[a,b,1]` array broadcast to `[a,b,c]`, and the three reductions of an
  `[a,b,c]` array over axis 2 at the exact extended reals — the vector unit's maximum and sum, and the host's
  maximum — each as a fold or a sum over the last coordinate.
-/
import Idealize.ShloMosaic.PureOps.Ideal.Laws
import Idealize.ShloMosaic.Lib.Pipeline.Value
import Idealize.ShloMosaic.Lib.ValueIdx

noncomputable section

namespace Idealize.ShloMosaic.LastAxis3

open Idealize.ShloMosaic Idealize.ShloMosaic.ValueIdx

variable {α : Type}

/-- An `[a,b]` array cast to `[a,b,1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a,b,1]` array broadcast to `[a,b,c]` reads, at `(i, j, r)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (r : Fin c) :
    broadcastTo ⟨3, ![a, b, c]⟩ v h (ix3 i j r) = v (ix3 i j (0 : Fin 1)) := by
  refine broadcastTo_apply v h (ix3 i j r) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index a reduction over axis 2 inserts the coordinate `k` into: `(i, j)` becomes `(i, j, k)`. -/
theorem lift_last {a b c : ℕ} (h : (⟨3, ![a, b, c]⟩ : Shape).Reduces [2] ⟨2, ![a, b]⟩) (i : Fin a) (j : Fin b) (k : Fin c) :
    h.lift (ix2 i j) k = ix3 i j k :=
  funext fun ax => Fin.ext (by
    match ax with
    | ⟨0, _⟩ => rfl
    | ⟨1, _⟩ => rfl
    | ⟨2, _⟩ => rfl)

variable {φ : FTy}

/-- The vector unit's sum of an `[a,b,c]` array over its last axis, at `(i, j)`: the sum over `k` of the source at `(i, j, k)`. -/
theorem multiReduction_add_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  rw [Ideal.multiReduction_add_single]
  exact Finset.sum_congr rfl fun k _ => congrArg src (lift_last h i j k)

/-- The vector unit's maximum of an `[a,b,c]` array over its last axis, at `(i, j)`: the fold of `max`, from the accumulator
    word's value, over `k` of the source at `(i, j, k)`. -/
theorem multiReduction_maximumf_last_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) := by
  rw [Ideal.multiReduction_maximumf_single]
  have e : src ∘ h.lift (ix2 i j) = fun k => src (ix3 i j k) := funext fun k => congrArg src (lift_last h i j k)
  rw [e]
  rfl

/-- The host's maximum of an `[a,b,c]` array over its last axis, at `(i, j)`: the fold of `max`, from the initial value, over
    `k` of the operand at `(i, j, k)`. -/
theorem hostReduce_maximumf_last_apply {a b c : ℕ} {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) (fun k => x (ix3 i j k)) := by
  rw [Host.reduce_eq_fold_single (FloatOps.maximumf (F := Ideal) (φ := φ)) x init h' h hu]
  have e : x ∘ h.lift (ix2 i j) = fun k => x (ix3 i j k) := funext fun k => congrArg x (lift_last h i j k)
  rw [e]
  rfl

end Idealize.ShloMosaic.LastAxis3

end
-- ==== Proof.KernelProducts.lean ====
/-
  The kernel's two batched matrix products read at an index, at the exact extended reals: for a block of two batch
  elements, the scores' product contracts the head dimension of the queries' and the keys' blocks within one batch
  element, entry (b, i, j) = Σ_d Q(b, i, d) · K(b, j, d); the output's product contracts the key axis of the weights
  and the values, entry (b, i, d) = Σ_j W(b, i, j) · V(b, j, d). Both accumulate into zeros.
-/
import proofs.«134398_j46308337386102_2_alg».proof.Proof.Gen.KernelIdeal
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx

/-! ## The scores' product: batch axis 0, contracting axis 2 of both operands -/

theorem qk_lhs0 (i : S2x512x512.Idx) (q : dot_S2x512x64_S2x512x64_S2x512x512_2_2_1_1_0_0.contr.Idx) : (dot_S2x512x64_S2x512x64_S2x512x512_2_2_1_1_0_0.lhsIdx i q 0).val = (i 0).val := by
  unfold DotDims.lhsIdx
  rw [dif_pos (show (0 : Fin S2x512x64.rank) ∈ dot_S2x512x64_S2x512x64_S2x512x512_2_2_1_1_0_0.lhsBatch by decide)]
  rfl
theorem qk_lhs1 (i : S2x512x512.Idx) (q : dot_S2x512x64_S2x512x64_S2x512x512_2_2_1_1_0_0.contr.Idx) : (dot_S2x512x64_S2x512x64_S2x512x512_2_2_1_1_0_0.lhsIdx i q 1).val = (i 1).val := by
  unfold DotDims.lhsIdx
  rw [dif_neg (show ¬(1 : Fin S2x512x64.rank) ∈ dot_S2x512x64_S2x512x64_S2x512x512_2_2_1_1_0_0.lhsBatch by decide), dif_pos (show (1 : Fin S2x512x64.rank) ∈ dot_S2x512x64_S2x512x64_S2x512x512_2_2_1_1_0_0.lhsNonContracting by decide)]
  rfl
theorem qk_lhs2 (i : S2x512x512.Idx) (q : dot_S2x512x64_S2x512x64_S2x512x512_2_2_1_1_0_0.contr.Idx) : (dot_S2x512x64_S2x512x64_S2x512x512_2_2_1_1_0_0.lhsIdx i q 2).val = (q ⟨0, by decide⟩).val :=
  dot_S2x512x64_S2x512x64_S2x512x512_2_2_1_1_0_0.lhsIdx_val_of_single rfl i q
theorem qk_rhs0 (i : S2x512x512.Idx) (q : dot_S2x512x64_S2x512x64_S2x512x512_2_2_1_1_0_0.contr.Idx) : (dot_S2x512x64_S2x512x64_S2x512x512_2_2_1_1_0_0.rhsIdx i q 0).val = (i 0).val := by
  unfold DotDims.rhsIdx
  rw [dif_pos (show (0 : Fin S2x512x64.rank) ∈ dot_S2x512x64_S2x512x64_S2x512x512_2_2_1_1_0_0.rhsBatch by decide)]
  rfl
theorem qk_rhs1 (i : S2x512x512.Idx) (q : dot_S2x512x64_S2x512x64_S2x512x512_2_2_1_1_0_0.contr.Idx) : (dot_S2x512x64_S2x512x64_S2x512x512_2_2_1_1_0_0.rhsIdx i q 1).val = (i 2).val := by
  unfold DotDims.rhsIdx
  rw [dif_neg (show ¬(1 : Fin S2x512x64.rank) ∈ dot_S2x512x64_S2x512x64_S2x512x512_2_2_1_1_0_0.rhsBatch by decide), dif_pos (show (1 : Fin S2x512x64.rank) ∈ dot_S2x512x64_S2x512x64_S2x512x512_2_2_1_1_0_0.rhsNonContracting by decide)]
  rfl
theorem qk_rhs2 (i : S2x512x512.Idx) (q : dot_S2x512x64_S2x512x64_S2x512x512_2_2_1_1_0_0.contr.Idx) : (dot_S2x512x64_S2x512x64_S2x512x512_2_2_1_1_0_0.rhsIdx i q 2).val = (q ⟨0, by decide⟩).val :=
  dot_S2x512x64_S2x512x64_S2x512x512_2_2_1_1_0_0.rhsIdx_val_of_single rfl i q

/-- The scores' product at (b, i, j): the sum over the head dimension of the query row's and the key row's entries. -/
theorem qk_apply {φ₁ φ₂ : FTy} (x0 : FVec Ideal S2x512x64 φ₁) (x1 : FVec Ideal S2x512x64 φ₂) (b : Fin 2) (i j : Fin 512) :
    matmul dot_S2x512x64_S2x512x64_S2x512x512_2_2_1_1_0_0 none x0 x1 (constant S2x512x512 .f32 0x00000000#32) (ix3 b i j)
      = ∑ d : Fin 64, x0 (ix3 b i d) * x1 (ix3 b j d) := by
  simp only [matmul]
  rw [Ideal.matmul_constant_zero_apply, ← Equiv.sum_comp (contrEquiv1 dot_S2x512x64_S2x512x64_S2x512x512_2_2_1_1_0_0 64 rfl rfl).symm]
  refine Finset.sum_congr rfl fun k _ => ?_
  have hk := contrEquiv1_symm_val dot_S2x512x64_S2x512x64_S2x512x512_2_2_1_1_0_0 64 rfl rfl k
  have el : dot_S2x512x64_S2x512x64_S2x512x512_2_2_1_1_0_0.lhsIdx (ix3 b i j) ((contrEquiv1 dot_S2x512x64_S2x512x64_S2x512x512_2_2_1_1_0_0 64 rfl rfl).symm k) = ix3 b i k := funext fun a => Fin.ext (by
    match a with
    | ⟨0, _⟩ => exact qk_lhs0 _ _
    | ⟨1, _⟩ => exact qk_lhs1 _ _
    | ⟨2, _⟩ => exact (qk_lhs2 _ _).trans hk)
  have er : dot_S2x512x64_S2x512x64_S2x512x512_2_2_1_1_0_0.rhsIdx (ix3 b i j) ((contrEquiv1 dot_S2x512x64_S2x512x64_S2x512x512_2_2_1_1_0_0 64 rfl rfl).symm k) = ix3 b j k := funext fun a => Fin.ext (by
    match a with
    | ⟨0, _⟩ => exact qk_rhs0 _ _
    | ⟨1, _⟩ => exact qk_rhs1 _ _
    | ⟨2, _⟩ => exact (qk_rhs2 _ _).trans hk)
  rw [el, er]

/-! ## The output's product: batch axis 0, contracting axis 2 of the weights and axis 1 of the values -/

theorem wv_lhs0 (i : S2x512x64.Idx) (q : dot_S2x512x512_S2x512x64_S2x512x64_2_1_1_2_0_0.contr.Idx) : (dot_S2x512x512_S2x512x64_S2x512x64_2_1_1_2_0_0.lhsIdx i q 0).val = (i 0).val := by
  unfold DotDims.lhsIdx
  rw [dif_pos (show (0 : Fin S2x512x512.rank) ∈ dot_S2x512x512_S2x512x64_S2x512x64_2_1_1_2_0_0.lhsBatch by decide)]
  rfl
theorem wv_lhs1 (i : S2x512x64.Idx) (q : dot_S2x512x512_S2x512x64_S2x512x64_2_1_1_2_0_0.contr.Idx) : (dot_S2x512x512_S2x512x64_S2x512x64_2_1_1_2_0_0.lhsIdx i q 1).val = (i 1).val := by
  unfold DotDims.lhsIdx
  rw [dif_neg (show ¬(1 : Fin S2x512x512.rank) ∈ dot_S2x512x512_S2x512x64_S2x512x64_2_1_1_2_0_0.lhsBatch by decide), dif_pos (show (1 : Fin S2x512x512.rank) ∈ dot_S2x512x512_S2x512x64_S2x512x64_2_1_1_2_0_0.lhsNonContracting by decide)]
  rfl
theorem wv_lhs2 (i : S2x512x64.Idx) (q : dot_S2x512x512_S2x512x64_S2x512x64_2_1_1_2_0_0.contr.Idx) : (dot_S2x512x512_S2x512x64_S2x512x64_2_1_1_2_0_0.lhsIdx i q 2).val = (q ⟨0, by decide⟩).val :=
  dot_S2x512x512_S2x512x64_S2x512x64_2_1_1_2_0_0.lhsIdx_val_of_single rfl i q
theorem wv_rhs0 (i : S2x512x64.Idx) (q : dot_S2x512x512_S2x512x64_S2x512x64_2_1_1_2_0_0.contr.Idx) : (dot_S2x512x512_S2x512x64_S2x512x64_2_1_1_2_0_0.rhsIdx i q 0).val = (i 0).val := by
  unfold DotDims.rhsIdx
  rw [dif_pos (show (0 : Fin S2x512x64.rank) ∈ dot_S2x512x512_S2x512x64_S2x512x64_2_1_1_2_0_0.rhsBatch by decide)]
  rfl
theorem wv_rhs1 (i : S2x512x64.Idx) (q : dot_S2x512x512_S2x512x64_S2x512x64_2_1_1_2_0_0.contr.Idx) : (dot_S2x512x512_S2x512x64_S2x512x64_2_1_1_2_0_0.rhsIdx i q 1).val = (q ⟨0, by decide⟩).val :=
  dot_S2x512x512_S2x512x64_S2x512x64_2_1_1_2_0_0.rhsIdx_val_of_single rfl i q
theorem wv_rhs2 (i : S2x512x64.Idx) (q : dot_S2x512x512_S2x512x64_S2x512x64_2_1_1_2_0_0.contr.Idx) : (dot_S2x512x512_S2x512x64_S2x512x64_2_1_1_2_0_0.rhsIdx i q 2).val = (i 2).val := by
  unfold DotDims.rhsIdx
  rw [dif_neg (show ¬(2 : Fin S2x512x64.rank) ∈ dot_S2x512x512_S2x512x64_S2x512x64_2_1_1_2_0_0.rhsBatch by decide), dif_pos (show (2 : Fin S2x512x64.rank) ∈ dot_S2x512x512_S2x512x64_S2x512x64_2_1_1_2_0_0.rhsNonContracting by decide)]
  rfl

/-- The output's product at (b, i, d): the sum over the keys of the weight times the value's entry. -/
theorem wv_apply {φ₁ φ₂ : FTy} (w : FVec Ideal S2x512x512 φ₁) (x2 : FVec Ideal S2x512x64 φ₂) (b : Fin 2) (i : Fin 512) (d : Fin 64) :
    matmul dot_S2x512x512_S2x512x64_S2x512x64_2_1_1_2_0_0 none w x2 (constant S2x512x64 .f32 0x00000000#32) (ix3 b i d)
      = ∑ j : Fin 512, w (ix3 b i j) * x2 (ix3 b j d) := by
  simp only [matmul]
  rw [Ideal.matmul_constant_zero_apply, ← Equiv.sum_comp (contrEquiv1 dot_S2x512x512_S2x512x64_S2x512x64_2_1_1_2_0_0 512 rfl rfl).symm]
  refine Finset.sum_congr rfl fun k _ => ?_
  have hk := contrEquiv1_symm_val dot_S2x512x512_S2x512x64_S2x512x64_2_1_1_2_0_0 512 rfl rfl k
  have el : dot_S2x512x512_S2x512x64_S2x512x64_2_1_1_2_0_0.lhsIdx (ix3 b i d) ((contrEquiv1 dot_S2x512x512_S2x512x64_S2x512x64_2_1_1_2_0_0 512 rfl rfl).symm k) = ix3 b i k := funext fun a => Fin.ext (by
    match a with
    | ⟨0, _⟩ => exact wv_lhs0 _ _
    | ⟨1, _⟩ => exact wv_lhs1 _ _
    | ⟨2, _⟩ => exact (wv_lhs2 _ _).trans hk)
  have er : dot_S2x512x512_S2x512x64_S2x512x64_2_1_1_2_0_0.rhsIdx (ix3 b i d) ((contrEquiv1 dot_S2x512x512_S2x512x64_S2x512x64_2_1_1_2_0_0 512 rfl rfl).symm k) = ix3 b k d := funext fun a => Fin.ext (by
    match a with
    | ⟨0, _⟩ => exact wv_rhs0 _ _
    | ⟨1, _⟩ => exact (wv_rhs1 _ _).trans hk
    | ⟨2, _⟩ => exact wv_rhs2 _ _)
  rw [el, er]

end Cert.KernelIdeal.Block

end
-- ==== Proof.KernelBlock.lean ====
/-
  What the kernel's body computes on one block of two batch elements, read at an index, at the exact extended reals.

  The body's arithmetic splits in three: the block's scores (the batched product of the queries' and keys' blocks, times
  one eighth, minus infinity where the key mask's word is not zero); the block's weights from its scores (row maximum,
  shifted exponentials, row sum, quotient, zero where the query mask's word is not zero); the block's output (the batched
  product of the weights and the values' block). Entry (b, i, ·) of each is the row function of the specification at the
  block's rows (b, i, ·) and its batch element b: the reductions run along the last axis only, so nothing crosses a row.
-/
import proofs.«134398_j46308337386102_2_alg».proof.Proof.Gen.KernelIdeal.Skeleton
import proofs.«134398_j46308337386102_2_alg».proof.Proof.Spec
import proofs.«134398_j46308337386102_2_alg».proof.Proof.LibLastAxis3
import proofs.«134398_j46308337386102_2_alg».proof.Proof.KernelProducts

noncomputable section

namespace Cert.KernelIdeal.Block

open Cert.KernelIdeal Cert.KernelIdeal.Gen Idealize.ShloMosaic Idealize.ShloMosaic.ValueIdx Idealize.ShloMosaic.LastAxis3 Cert.Attn

/-- The block's scores from the loaded blocks of the queries, the keys and the key mask's words. -/
def scoresBlk (x0 x1 : Vec Ideal S2x512x64 .f32) (x3 : Vec Ideal S2x512x512 .i32) : FVec Ideal S2x512x512 .f32 :=
  select (cmpi .ne x3 (constantI S2x512x512 32 0#32)) (broadcast S2x512x512 (Scalar.ofBits (F := Ideal) .f32 0xFF800000#32))
    (mulf (matmul dot_S2x512x64_S2x512x64_S2x512x512_2_2_1_1_0_0 none (truncf .bf16 x0 bitsLt_bf16_f32) (truncf .bf16 x1 bitsLt_bf16_f32)
        (constant S2x512x512 .f32 0x00000000#32))
      (broadcast S2x512x512 (Scalar.ofBits (F := Ideal) .f32 0x3E000000#32)))

/-- The block's row maxima, spread back over the key axis. -/
def maxBlk (s : FVec Ideal S2x512x512 .f32) : FVec Ideal S2x512x512 .f32 :=
  broadcastTo S2x512x512 (shapeCast S2x512x1
    (multiReduction .maximumf [2] S2x512 s 0xFF800000#32 reduces_S2x512x512_S2x512 (.inl rfl) rfl) shapeCasts_S2x512_S2x512x1)
    broadcasts_S2x512x1_S2x512x512

/-- The block's row sums, spread back over the key axis. -/
def sumBlk (e : FVec Ideal S2x512x512 .f32) : FVec Ideal S2x512x512 .f32 :=
  broadcastTo S2x512x512 (shapeCast S2x512x1
    (multiReduction .add [2] S2x512 e 0x00000000#32 reduces_S2x512x512_S2x512 (.inl rfl) rfl) shapeCasts_S2x512_S2x512x1)
    broadcasts_S2x512x1_S2x512x512

/-- The block's weights from its scores and the query mask's words. -/
def weightsBlk (s : FVec Ideal S2x512x512 .f32) (x4 : Vec Ideal S2x512x512 .i32) : FVec Ideal S2x512x512 .f32 :=
  select (cmpi .ne x4 (constantI S2x512x512 32 0#32)) (broadcast S2x512x512 (Scalar.ofBits (F := Ideal) .f32 0x00000000#32))
    (divf (exp (subf s (maxBlk s))) (sumBlk (exp (subf s (maxBlk s)))))

/-- The weights' payload is the weights of the scores. -/
theorem pay1_eq (x0 x1 : Vec Ideal S2x512x64 .f32) (x3 x4 : Vec Ideal S2x512x512 .i32) :
    k0_pay1 (F := Ideal) x0 x1 x3 x4 = weightsBlk (scoresBlk x0 x1 x3) x4 := rfl

/-- The output's payload is the batched product of the weights' payload and the values' block. -/
theorem pay2_eq (x0 x1 x2 : Vec Ideal S2x512x64 .f32) (x3 x4 : Vec Ideal S2x512x512 .i32) :
    k0_pay2 (F := Ideal) x0 x1 x2 x3 x4
      = matmul dot_S2x512x512_S2x512x64_S2x512x64_2_1_1_2_0_0 none (truncf .bf16 (k0_pay1 (F := Ideal) x0 x1 x3 x4) bitsLt_bf16_f32) (truncf .bf16 x2 bitsLt_bf16_f32)
          (constant S2x512x64 .f32 0x00000000#32) := rfl

/-- The row maximum spread back, at (b, i, j): the fold of `max` from minus infinity over row (b, i). -/
theorem maxBlk_apply (s : FVec Ideal S2x512x512 .f32) (b : Fin 2) (i j : Fin 512) :
    maxBlk s (ix3 b i j) = rowMax (fun j' => s (ix3 b i j')) := by
  unfold maxBlk rowMax
  rw [broadcastTo_ab1_abc_apply, shapeCast_ab_ab1_apply]
  exact multiReduction_maximumf_last_apply s 0xFF800000#32 reduces_S2x512x512_S2x512 (.inl rfl) rfl b i

/-- The row sum spread back, at (b, i, j): the sum over row (b, i). -/
theorem sumBlk_apply (e : FVec Ideal S2x512x512 .f32) (b : Fin 2) (i j : Fin 512) :
    sumBlk e (ix3 b i j) = ∑ j' : Fin 512, e (ix3 b i j') := by
  unfold sumBlk
  rw [broadcastTo_ab1_abc_apply, shapeCast_ab_ab1_apply]
  exact multiReduction_add_last_apply e 0x00000000#32 reduces_S2x512x512_S2x512 (.inl rfl) rfl b i

/-- The block's scores at (b, i, j) are the specification's row scores of the block's row (b, i) and batch element b. -/
theorem scoresBlk_apply (x0 x1 : Vec Ideal S2x512x64 .f32) (x3 : Vec Ideal S2x512x512 .i32) (b : Fin 2) (i j : Fin 512) :
    scoresBlk x0 x1 x3 (ix3 b i j)
      = scoreRow (fun d => x0 (ix3 b i d)) (fun j' d => x1 (ix3 b j' d)) (fun j' => IntOp.cmpi .ne (x3 (ix3 b i j')) 0#32) j := by
  unfold scoresBlk scoreRow
  show Scalar.select (IntOp.cmpi .ne (x3 (ix3 b i j)) 0#32) (Ideal.ofBits .f32 0xFF800000#32)
      (matmul dot_S2x512x64_S2x512x64_S2x512x512_2_2_1_1_0_0 none (truncf .bf16 x0 bitsLt_bf16_f32) (truncf .bf16 x1 bitsLt_bf16_f32)
        (constant S2x512x512 .f32 0x00000000#32) (ix3 b i j) * Ideal.ofBits .f32 0x3E000000#32) = _
  rw [qk_apply]
  rfl

/-- The block's weights at (b, i, j) are the specification's row weights of the scores' row (b, i). -/
theorem weightsBlk_apply (s : FVec Ideal S2x512x512 .f32) (x4 : Vec Ideal S2x512x512 .i32) (b : Fin 2) (i j : Fin 512) :
    weightsBlk s x4 (ix3 b i j)
      = softRow (fun j' => s (ix3 b i j')) (fun j' => IntOp.cmpi .ne (x4 (ix3 b i j')) 0#32) j := by
  unfold weightsBlk softRow
  show Scalar.select (IntOp.cmpi .ne (x4 (ix3 b i j)) 0#32) (Ideal.ofBits .f32 0x00000000#32)
      (Ideal.div (Ideal.exp (s (ix3 b i j) - maxBlk s (ix3 b i j))) (sumBlk (exp (subf s (maxBlk s))) (ix3 b i j))) = _
  rw [sumBlk_apply, maxBlk_apply]
  refine congrArg (fun z => Scalar.select _ _ (Ideal.div _ z)) (Finset.sum_congr rfl fun j' _ => ?_)
  show Ideal.exp (s (ix3 b i j') - maxBlk s (ix3 b i j')) = _
  rw [maxBlk_apply]

/-- THE WEIGHTS' PAYLOAD at (b, i, j): the specification's attention row of the block's query row (b, i), the keys of its
    batch element b, and the two masks' rows read as "the word is not zero". -/
theorem pay1_apply (x0 x1 : Vec Ideal S2x512x64 .f32) (x3 x4 : Vec Ideal S2x512x512 .i32) (b : Fin 2) (i j : Fin 512) :
    k0_pay1 (F := Ideal) x0 x1 x3 x4 (ix3 b i j)
      = attnRow (fun d => x0 (ix3 b i d)) (fun j' d => x1 (ix3 b j' d)) (fun j' => IntOp.cmpi .ne (x3 (ix3 b i j')) 0#32)
          (fun j' => IntOp.cmpi .ne (x4 (ix3 b i j')) 0#32) j := by
  rw [pay1_eq, weightsBlk_apply]
  unfold attnRow
  exact congrArg (fun s => softRow s _ j) (funext fun j' => scoresBlk_apply x0 x1 x3 b i j')

/-- THE OUTPUT'S PAYLOAD at (b, i, d): the weights' row (b, i) against the values of batch element b. -/
theorem pay2_apply (x0 x1 x2 : Vec Ideal S2x512x64 .f32) (x3 x4 : Vec Ideal S2x512x512 .i32) (b : Fin 2) (i : Fin 512) (d : Fin 64) :
    k0_pay2 (F := Ideal) x0 x1 x2 x3 x4 (ix3 b i d)
      = outRow (fun j => k0_pay1 (F := Ideal) x0 x1 x3 x4 (ix3 b i j)) (fun j d' => x2 (ix3 b j d')) d := by
  rw [pay2_eq, wv_apply]
  rfl

end Cert.KernelIdeal.Block

end
-- ==== Proof.KernelArrays.lean ====
/-
  From blocks to arrays: after the kernel's run its two result arrays are the specification's functions of its arguments.

  The grid has 64 points; at point t every window's block is batch elements 2t and 2t + 1 of its array, whole in the other
  two axes. So entry (b, i, ·) of a block is entry (2t + b, i, ·) of the array, the body's result on the blocks at point t
  is the block at t of the specification (a weight or an output entry depends only on its own batch element), and the 64
  blocks tile each result array. The two mask windows stage the host's widening of the one-bit masks to words; "the word
  is not zero" gives the bit back.
-/
import proofs.«134398_j46308337386102_2_alg».proof.Proof.Gen.KernelIdeal.Value
import proofs.«134398_j46308337386102_2_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Cert.KernelIdeal.Block Idealize.ShloMosaic.ValueIdx Cert.Attn

variable (m : (ℓ : Loc nD τ sig) → Buf (Elt Ideal) ℓ) (ρ : Dev nD → PrngReg)

theorem hz : (![0, 0, 0] : Fin 3 → Nat) = fun _ => 0 := funext fun a => by fin_cases a <;> rfl

/-! ## Where a block's entries sit in its array -/

/-- Window 0's block index at point `t` is (t, 0, 0). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- Window 1's block index at point `t` is (t, 0, 0). -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
/-- Window 2's block index at point `t` is (t, 0, 0). -/
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
/-- Window 3's block index at point `t` is (t, 0, 0). -/
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
/-- Window 4's block index at point `t` is (t, 0, 0). -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)
/-- Window 5's block index at point `t` is (t, 0, 0). -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
/-- Window 6's block index at point `t` is (t, 0, 0). -/
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

/-- Entry (b, i, d) of window 0's block at point `t` sits at (2t + b, i, d) of its array. -/
theorem emb0 (t : Fin cfg0.N) (b : Fin 2) (i : Fin 512) (d : Fin 64) (bb : Fin 128) (hbb : bb.val = 2 * t.val + b.val) :
    ((cfg0.win 0).blk t).view.emb (ix3 b i d : S2x512x64.Idx) = (ix3 bb i d : S128x512x64.Idx) := by
  obtain ⟨e0, e1, e2⟩ := idx0 t
  funext a
  apply Fin.ext
  match a with
  | ⟨0, _⟩ => show win0_0.index t (0 : Fin 3) * 2 + 1 * b.val = bb.val; rw [e0, hbb]; omega
  | ⟨1, _⟩ => show win0_0.index t (1 : Fin 3) * 512 + 1 * i.val = i.val; rw [e1]; omega
  | ⟨2, _⟩ => show win0_0.index t (2 : Fin 3) * 64 + 1 * d.val = d.val; rw [e2]; omega
/-- Entry (b, i, d) of window 1's block at point `t` sits at (2t + b, i, d) of its array. -/
theorem emb1 (t : Fin cfg0.N) (b : Fin 2) (i : Fin 512) (d : Fin 64) (bb : Fin 128) (hbb : bb.val = 2 * t.val + b.val) :
    ((cfg0.win 1).blk t).view.emb (ix3 b i d : S2x512x64.Idx) = (ix3 bb i d : S128x512x64.Idx) := by
  obtain ⟨e0, e1, e2⟩ := idx1 t
  funext a
  apply Fin.ext
  match a with
  | ⟨0, _⟩ => show win0_1.index t (0 : Fin 3) * 2 + 1 * b.val = bb.val; rw [e0, hbb]; omega
  | ⟨1, _⟩ => show win0_1.index t (1 : Fin 3) * 512 + 1 * i.val = i.val; rw [e1]; omega
  | ⟨2, _⟩ => show win0_1.index t (2 : Fin 3) * 64 + 1 * d.val = d.val; rw [e2]; omega
/-- Entry (b, i, d) of window 2's block at point `t` sits at (2t + b, i, d) of its array. -/
theorem emb2 (t : Fin cfg0.N) (b : Fin 2) (i : Fin 512) (d : Fin 64) (bb : Fin 128) (hbb : bb.val = 2 * t.val + b.val) :
    ((cfg0.win 2).blk t).view.emb (ix3 b i d : S2x512x64.Idx) = (ix3 bb i d : S128x512x64.Idx) := by
  obtain ⟨e0, e1, e2⟩ := idx2 t
  funext a
  apply Fin.ext
  match a with
  | ⟨0, _⟩ => show win0_2.index t (0 : Fin 3) * 2 + 1 * b.val = bb.val; rw [e0, hbb]; omega
  | ⟨1, _⟩ => show win0_2.index t (1 : Fin 3) * 512 + 1 * i.val = i.val; rw [e1]; omega
  | ⟨2, _⟩ => show win0_2.index t (2 : Fin 3) * 64 + 1 * d.val = d.val; rw [e2]; omega
/-- Entry (b, i, j) of window 3's block at point `t` sits at (2t + b, i, j) of its array. -/
theorem emb3 (t : Fin cfg0.N) (b : Fin 2) (i : Fin 512) (j : Fin 512) (bb : Fin 128) (hbb : bb.val = 2 * t.val + b.val) :
    ((cfg0.win 3).blk t).view.emb (ix3 b i j : S2x512x512.Idx) = (ix3 bb i j : S128x512x512.Idx) := by
  obtain ⟨e0, e1, e2⟩ := idx3 t
  funext a
  apply Fin.ext
  match a with
  | ⟨0, _⟩ => show win0_3.index t (0 : Fin 3) * 2 + 1 * b.val = bb.val; rw [e0, hbb]; omega
  | ⟨1, _⟩ => show win0_3.index t (1 : Fin 3) * 512 + 1 * i.val = i.val; rw [e1]; omega
  | ⟨2, _⟩ => show win0_3.index t (2 : Fin 3) * 512 + 1 * j.val = j.val; rw [e2]; omega
/-- Entry (b, i, j) of window 4's block at point `t` sits at (2t + b, i, j) of its array. -/
theorem emb4 (t : Fin cfg0.N) (b : Fin 2) (i : Fin 512) (j : Fin 512) (bb : Fin 128) (hbb : bb.val = 2 * t.val + b.val) :
    ((cfg0.win 4).blk t).view.emb (ix3 b i j : S2x512x512.Idx) = (ix3 bb i j : S128x512x512.Idx) := by
  obtain ⟨e0, e1, e2⟩ := idx4 t
  funext a
  apply Fin.ext
  match a with
  | ⟨0, _⟩ => show win0_4.index t (0 : Fin 3) * 2 + 1 * b.val = bb.val; rw [e0, hbb]; omega
  | ⟨1, _⟩ => show win0_4.index t (1 : Fin 3) * 512 + 1 * i.val = i.val; rw [e1]; omega
  | ⟨2, _⟩ => show win0_4.index t (2 : Fin 3) * 512 + 1 * j.val = j.val; rw [e2]; omega
/-- Entry (b, i, d) of window 5's block at point `t` sits at (2t + b, i, d) of its array. -/
theorem emb5 (t : Fin cfg0.N) (b : Fin 2) (i : Fin 512) (d : Fin 64) (bb : Fin 128) (hbb : bb.val = 2 * t.val + b.val) :
    ((cfg0.win 5).blk t).view.emb (ix3 b i d : S2x512x64.Idx) = (ix3 bb i d : S128x512x64.Idx) := by
  obtain ⟨e0, e1, e2⟩ := idx5 t
  funext a
  apply Fin.ext
  match a with
  | ⟨0, _⟩ => show win0_5.index t (0 : Fin 3) * 2 + 1 * b.val = bb.val; rw [e0, hbb]; omega
  | ⟨1, _⟩ => show win0_5.index t (1 : Fin 3) * 512 + 1 * i.val = i.val; rw [e1]; omega
  | ⟨2, _⟩ => show win0_5.index t (2 : Fin 3) * 64 + 1 * d.val = d.val; rw [e2]; omega
/-- Entry (b, i, j) of window 6's block at point `t` sits at (2t + b, i, j) of its array. -/
theorem emb6 (t : Fin cfg0.N) (b : Fin 2) (i : Fin 512) (j : Fin 512) (bb : Fin 128) (hbb : bb.val = 2 * t.val + b.val) :
    ((cfg0.win 6).blk t).view.emb (ix3 b i j : S2x512x512.Idx) = (ix3 bb i j : S128x512x512.Idx) := by
  obtain ⟨e0, e1, e2⟩ := idx6 t
  funext a
  apply Fin.ext
  match a with
  | ⟨0, _⟩ => show win0_6.index t (0 : Fin 3) * 2 + 1 * b.val = bb.val; rw [e0, hbb]; omega
  | ⟨1, _⟩ => show win0_6.index t (1 : Fin 3) * 512 + 1 * i.val = i.val; rw [e1]; omega
  | ⟨2, _⟩ => show win0_6.index t (2 : Fin 3) * 512 + 1 * j.val = j.val; rw [e2]; omega

/-! ## The arrays the windows stage -/

/-- The key mask's window stages the host's widening of the one-bit key mask to 32-bit words. -/
theorem V_keyWords (c : Dev nD) :
    (V m c main_v0 : S128x512x512.Idx → BitVec 32)
      = extui 32 (m ((c : Thread nD τ).loc main_arg3) : S128x512x512.Idx → BitVec 1) (by decide) := by
  dsimp only [Gen.V, Gen.hostOps0]; after_results <;> rfl

/-- The query mask's window stages the host's widening of the one-bit query mask to 32-bit words. -/
theorem V_queryWords (c : Dev nD) :
    (V m c main_v1 : S128x512x512.Idx → BitVec 32)
      = extui 32 (m ((c : Thread nD τ).loc main_arg4) : S128x512x512.Idx → BitVec 1) (by decide) := by
  dsimp only [Gen.V, Gen.hostOps0]; after_results <;> rfl

/-- A bit widened to a word is not zero exactly when the bit is set. -/
theorem ne_zero_widen (x : BitVec 1) : IntOp.cmpi .ne (x.setWidth 32) 0#32 = x := by
  by_cases h : x = 1#1
  · subst h; decide
  · rw [eq_zero_of_ne_one h]; decide

/-! ## The input blocks as entries of the arguments -/

theorem q_blk (c : Dev nD) (t : Fin cfg0.N) (b : Fin 2) (i : Fin 512) (d : Fin 64) (bb : Fin 128) (hbb : bb.val = 2 * t.val + b.val) :
    (iblk m c 0 t : Vec Ideal S2x512x64 .f32) (ix3 b i d)
      = (m ((c : Thread nD τ).loc main_arg0) : S128x512x64.Idx → EReal) (ix3 bb i d) := by
  unfold iblk
  rw [View.read_apply]
  show V m c main_arg0 _ = _
  rw [V_main_arg0, emb0 t b i d bb hbb]

theorem k_blk (c : Dev nD) (t : Fin cfg0.N) (b : Fin 2) (i : Fin 512) (d : Fin 64) (bb : Fin 128) (hbb : bb.val = 2 * t.val + b.val) :
    (iblk m c 1 t : Vec Ideal S2x512x64 .f32) (ix3 b i d)
      = (m ((c : Thread nD τ).loc main_arg1) : S128x512x64.Idx → EReal) (ix3 bb i d) := by
  unfold iblk
  rw [View.read_apply]
  show V m c main_arg1 _ = _
  rw [V_main_arg1, emb1 t b i d bb hbb]

theorem v_blk (c : Dev nD) (t : Fin cfg0.N) (b : Fin 2) (i : Fin 512) (d : Fin 64) (bb : Fin 128) (hbb : bb.val = 2 * t.val + b.val) :
    (iblk m c 2 t : Vec Ideal S2x512x64 .f32) (ix3 b i d)
      = (m ((c : Thread nD τ).loc main_arg2) : S128x512x64.Idx → EReal) (ix3 bb i d) := by
  unfold iblk
  rw [View.read_apply]
  show V m c main_arg2 _ = _
  rw [V_main_arg2, emb2 t b i d bb hbb]

theorem km_blk (c : Dev nD) (t : Fin cfg0.N) (b : Fin 2) (i j : Fin 512) (bb : Fin 128) (hbb : bb.val = 2 * t.val + b.val) :
    IntOp.cmpi .ne ((iblk m c 3 t : Vec Ideal S2x512x512 .i32) (ix3 b i j)) 0#32
      = (m ((c : Thread nD τ).loc main_arg3) : S128x512x512.Idx → BitVec 1) (ix3 bb i j) := by
  unfold iblk
  rw [View.read_apply]
  show IntOp.cmpi .ne ((V m c main_v0 : S128x512x512.Idx → BitVec 32) _) 0#32 = _
  rw [V_keyWords, emb3 t b i j bb hbb]
  exact ne_zero_widen _

theorem qm_blk (c : Dev nD) (t : Fin cfg0.N) (b : Fin 2) (i j : Fin 512) (bb : Fin 128) (hbb : bb.val = 2 * t.val + b.val) :
    IntOp.cmpi .ne ((iblk m c 4 t : Vec Ideal S2x512x512 .i32) (ix3 b i j)) 0#32
      = (m ((c : Thread nD τ).loc main_arg4) : S128x512x512.Idx → BitVec 1) (ix3 bb i j) := by
  unfold iblk
  rw [View.read_apply]
  show IntOp.cmpi .ne ((V m c main_v1 : S128x512x512.Idx → BitVec 32) _) 0#32 = _
  rw [V_queryWords, emb4 t b i j bb hbb]
  exact ne_zero_widen _

/-! ## What the two result arrays end holding -/

/-- The weights array: the specification's weights of the arguments. -/
abbrev weightsA (c : Dev nD) : S128x512x512.Idx → EReal :=
  attnG (m ((c : Thread nD τ).loc main_arg0)) (m ((c : Thread nD τ).loc main_arg1))
    (m ((c : Thread nD τ).loc main_arg3)) (m ((c : Thread nD τ).loc main_arg4))

/-- The output array: the specification's output of the arguments. -/
abbrev outputA (c : Dev nD) : S128x512x64.Idx → EReal :=
  outG (m ((c : Thread nD τ).loc main_arg0)) (m ((c : Thread nD τ).loc main_arg1)) (m ((c : Thread nD τ).loc main_arg2))
    (m ((c : Thread nD τ).loc main_arg3)) (m ((c : Thread nD τ).loc main_arg4))

/-- The weights' payload on the blocks at point `t`, at (b, i, j), is the weights array at (2t + b, i, j). -/
theorem weights_at (c : Dev nD) (t : Fin cfg0.N) (b : Fin 2) (i j : Fin 512) (bb : Fin 128) (hbb : bb.val = 2 * t.val + b.val) :
    k0_pay1 (F := Ideal) (iblk m c 0 t) (iblk m c 1 t) (iblk m c 3 t) (iblk m c 4 t) (ix3 b i j) = weightsA m c (ix3 bb i j) := by
  refine (pay1_apply (iblk m c 0 t) (iblk m c 1 t) (iblk m c 3 t) (iblk m c 4 t) b i j).trans ?_
  have h0 : (fun d => (iblk m c 0 t : Vec Ideal S2x512x64 .f32) (ix3 b i d))
      = fun d => (m ((c : Thread nD τ).loc main_arg0) : S128x512x64.Idx → EReal) (ix3 bb i d) :=
    funext fun d => q_blk m c t b i d bb hbb
  have h1 : (fun j' d => (iblk m c 1 t : Vec Ideal S2x512x64 .f32) (ix3 b j' d))
      = fun j' d => (m ((c : Thread nD τ).loc main_arg1) : S128x512x64.Idx → EReal) (ix3 bb j' d) :=
    funext fun j' => funext fun d => k_blk m c t b j' d bb hbb
  have h3 : (fun j' => IntOp.cmpi .ne ((iblk m c 3 t : Vec Ideal S2x512x512 .i32) (ix3 b i j')) 0#32)
      = fun j' => (m ((c : Thread nD τ).loc main_arg3) : S128x512x512.Idx → BitVec 1) (ix3 bb i j') :=
    funext fun j' => km_blk m c t b i j' bb hbb
  have h4 : (fun j' => IntOp.cmpi .ne ((iblk m c 4 t : Vec Ideal S2x512x512 .i32) (ix3 b i j')) 0#32)
      = fun j' => (m ((c : Thread nD τ).loc main_arg4) : S128x512x512.Idx → BitVec 1) (ix3 bb i j') :=
    funext fun j' => qm_blk m c t b i j' bb hbb
  rw [h0, h1, h3, h4]
  rfl

/-- The output's payload on the blocks at point `t`, at (b, i, d), is the output array at (2t + b, i, d). -/
theorem output_at (c : Dev nD) (t : Fin cfg0.N) (b : Fin 2) (i : Fin 512) (d : Fin 64) (bb : Fin 128) (hbb : bb.val = 2 * t.val + b.val) :
    k0_pay2 (F := Ideal) (iblk m c 0 t) (iblk m c 1 t) (iblk m c 2 t) (iblk m c 3 t) (iblk m c 4 t) (ix3 b i d) = outputA m c (ix3 bb i d) := by
  refine (pay2_apply (iblk m c 0 t) (iblk m c 1 t) (iblk m c 2 t) (iblk m c 3 t) (iblk m c 4 t) b i d).trans ?_
  have hw : (fun j => k0_pay1 (F := Ideal) (iblk m c 0 t) (iblk m c 1 t) (iblk m c 3 t) (iblk m c 4 t) (ix3 b i j))
      = fun j => weightsA m c (ix3 bb i j) := funext fun j => weights_at m c t b i j bb hbb
  have h2 : (fun j d' => (iblk m c 2 t : Vec Ideal S2x512x64 .f32) (ix3 b j d'))
      = fun j d' => (m ((c : Thread nD τ).loc main_arg2) : S128x512x64.Idx → EReal) (ix3 bb j d') :=
    funext fun j => funext fun d' => v_blk m c t b j d' bb hbb
  rw [hw, h2]
  rfl

/-- The batch element that entry b of the block at point `t` belongs to. -/
def batchOf (t : Fin cfg0.N) (b : Fin 2) : Fin 128 :=
  ⟨2 * t.val + b.val, by
    have ht : t.val < 64 := Nat.lt_of_lt_of_eq t.isLt (show cfg0.N = 64 from N_0)
    have hb := b.isLt
    omega⟩

/-- WHAT POINT `t` WRITES BACK to the weights array is block `t` of the specification's weights. -/
theorem weights_flushed (c : Dev nD) (t : Fin cfg0.N) :
    (dats m 0 c).flushed 6 t = ((cfg0.win 6).blk t).view.read (Elt Ideal) (weightsA m c) := by
  rw [flushed6]
  unfold out0_6
  rw [View.canon_unit_zero hz]
  simp only [View.ld_unit_zero (S := S2x512x64) hz, View.ld_unit_zero (S := S2x512x512) hz]
  funext y
  obtain ⟨b, i, j, rfl⟩ : ∃ (b : Fin 2) (i j : Fin 512), y = ix3 b i j := ⟨y 0, y 1, y 2, eq_ix3 y⟩
  show k0_pay1 (F := Ideal) (iblk m c 0 t) (iblk m c 1 t) (iblk m c 3 t) (iblk m c 4 t) (ix3 b i j)
    = weightsA m c (((cfg0.win 6).blk t).view.emb (ix3 b i j : S2x512x512.Idx))
  rw [emb6 t b i j (batchOf t b) rfl]
  exact weights_at m c t b i j (batchOf t b) rfl

/-- WHAT POINT `t` WRITES BACK to the output array is block `t` of the specification's output. -/
theorem output_flushed (c : Dev nD) (t : Fin cfg0.N) :
    (dats m 0 c).flushed 5 t = ((cfg0.win 5).blk t).view.read (Elt Ideal) (outputA m c) := by
  rw [flushed5]
  unfold out0_5
  rw [View.canon_unit_zero hz]
  simp only [View.ld_unit_zero (S := S2x512x64) hz, View.ld_unit_zero (S := S2x512x512) hz]
  funext y
  obtain ⟨b, i, d, rfl⟩ : ∃ (b : Fin 2) (i : Fin 512) (d : Fin 64), y = ix3 b i d := ⟨y 0, y 1, y 2, eq_ix3 y⟩
  show k0_pay2 (F := Ideal) (iblk m c 0 t) (iblk m c 1 t) (iblk m c 2 t) (iblk m c 3 t) (iblk m c 4 t) (ix3 b i d)
    = outputA m c (((cfg0.win 5).blk t).view.emb (ix3 b i d : S2x512x64.Idx))
  rw [emb5 t b i d (batchOf t b) rfl]
  exact output_at m c t b i d (batchOf t b) rfl

/-! ## The blocks tile the arrays -/

/-- An index of the weights array is in point `t`'s block iff each coordinate is in the block's range on its axis. -/
theorem mem_blk6 (t : Fin cfg0.N) (i : S128x512x512.Idx) :
    i ∈ ((cfg0.win 6).blk t).view.set ↔ ∀ a : Fin 3, win0_6.index t a * S2x512x512.size a ≤ (i a).val ∧ (i a).val < win0_6.index t a * S2x512x512.size a + S2x512x512.size a := by
  show i ∈ ((View.whole main_v2_1).slice (win0_6.rect t)).set ↔ _
  rw [View.set_slice_whole, Rect.mem_set_unit]
  exact Iff.rfl

/-- An index of the output array is in point `t`'s block iff each coordinate is in the block's range on its axis. -/
theorem mem_blk5 (t : Fin cfg0.N) (i : S128x512x64.Idx) :
    i ∈ ((cfg0.win 5).blk t).view.set ↔ ∀ a : Fin 3, win0_5.index t a * S2x512x64.size a ≤ (i a).val ∧ (i a).val < win0_5.index t a * S2x512x64.size a + S2x512x64.size a := by
  show i ∈ ((View.whole main_v2_0).slice (win0_5.rect t)).set ↔ _
  rw [View.set_slice_whole, Rect.mem_set_unit]
  exact Iff.rfl

/-- Every index of the weights array is in the block of the point that owns its batch element: point (b / 2). -/
theorem weights_cover (i : S128x512x512.Idx) :
    ∃ t : Fin cfg0.N, (cfg0.win 6).flush t = true ∧ i ∈ ((cfg0.win 6).blk t).view.set := by
  have h0 : (i 0).val < 128 := (i 0).isLt
  have h1 : (i 1).val < 512 := (i 1).isLt
  have h2 : (i 2).val < 512 := (i 2).isLt
  have hN : cfg0.N = 64 := N_0
  refine ⟨⟨(i 0).val / 2, by rw [hN]; omega⟩, flush0_6 _, ?_⟩
  rw [mem_blk6]
  obtain ⟨e0, e1, e2⟩ := idx6 ⟨(i 0).val / 2, by rw [hN]; omega⟩
  intro a
  match a with
  | ⟨0, _⟩ =>
    show win0_6.index _ (0 : Fin 3) * 2 ≤ (i 0).val ∧ (i 0).val < win0_6.index _ (0 : Fin 3) * 2 + 2
    rw [e0]; show (i 0).val / 2 * 2 ≤ (i 0).val ∧ (i 0).val < (i 0).val / 2 * 2 + 2; omega
  | ⟨1, _⟩ =>
    show win0_6.index _ (1 : Fin 3) * 512 ≤ (i 1).val ∧ (i 1).val < win0_6.index _ (1 : Fin 3) * 512 + 512
    rw [e1]; omega
  | ⟨2, _⟩ =>
    show win0_6.index _ (2 : Fin 3) * 512 ≤ (i 2).val ∧ (i 2).val < win0_6.index _ (2 : Fin 3) * 512 + 512
    rw [e2]; omega

/-- Every index of the output array is in the block of the point that owns its batch element. -/
theorem output_cover (i : S128x512x64.Idx) :
    ∃ t : Fin cfg0.N, (cfg0.win 5).flush t = true ∧ i ∈ ((cfg0.win 5).blk t).view.set := by
  have h0 : (i 0).val < 128 := (i 0).isLt
  have h1 : (i 1).val < 512 := (i 1).isLt
  have h2 : (i 2).val < 64 := (i 2).isLt
  have hN : cfg0.N = 64 := N_0
  refine ⟨⟨(i 0).val / 2, by rw [hN]; omega⟩, flush0_5 _, ?_⟩
  rw [mem_blk5]
  obtain ⟨e0, e1, e2⟩ := idx5 ⟨(i 0).val / 2, by rw [hN]; omega⟩
  intro a
  match a with
  | ⟨0, _⟩ =>
    show win0_5.index _ (0 : Fin 3) * 2 ≤ (i 0).val ∧ (i 0).val < win0_5.index _ (0 : Fin 3) * 2 + 2
    rw [e0]; show (i 0).val / 2 * 2 ≤ (i 0).val ∧ (i 0).val < (i 0).val / 2 * 2 + 2; omega
  | ⟨1, _⟩ =>
    show win0_5.index _ (1 : Fin 3) * 512 ≤ (i 1).val ∧ (i 1).val < win0_5.index _ (1 : Fin 3) * 512 + 512
    rw [e1]; omega
  | ⟨2, _⟩ =>
    show win0_5.index _ (2 : Fin 3) * 64 ≤ (i 2).val ∧ (i 2).val < win0_5.index _ (2 : Fin 3) * 64 + 64
    rw [e2]; omega

/-- THE WEIGHTS ARRAY after the run is the specification's weights of the arguments. -/
theorem weights_final (c : Dev nD) : (dats m 0 c).arrAt 6 cfg0.N = weightsA m c :=
  (dats m 0 c).arrAt_eq_of_cover 6 (weightsA m c) (fun t _ => weights_flushed m c t) weights_cover

/-- THE OUTPUT ARRAY after the run is the specification's output of the arguments. -/
theorem output_final (c : Dev nD) : (dats m 0 c).arrAt 5 cfg0.N = outputA m c :=
  (dats m 0 c).arrAt_eq_of_cover 5 (outputA m c) (fun t _ => output_flushed m c t) output_cover

/-- The kernel's run, read: each result array at the specification's function of the arguments, the arguments unchanged. -/
theorem run : θ_run defs (onTc (τ := τ) (main (F := Ideal))) ⟨m, fun _ => 0, ρ⟩ fun r => ∀ c : Dev nD,
      r.2.mem ((c : Thread nD τ).loc main_v2_0) = outputA m c
      ∧ r.2.mem ((c : Thread nD τ).loc main_v2_1) = weightsA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (output_final m c), (h c).2.1.trans (weights_final m c), (h c).2.2⟩)
    (run_blocks m ρ)

end Cert.KernelIdeal.Arrays

end
-- ==== Proof.Consts.lean ====
/-
  The float words the two programs spell, as the extended reals they denote: minus infinity (the masked score and the
  starting value of both row maxima), eight (the reference's divisor) and one eighth (the kernel's factor), and the one
  law that joins the two scalings: dividing an extended real by eight is multiplying it by one eighth.
-/
import Idealize.ShloMosaic.PureOps.Ideal

noncomputable section

namespace Cert.Attn

open Idealize.ShloMosaic

/-- The word `0xFF800000` denotes minus infinity, the bottom of the extended reals. -/
theorem ofBits_neg_inf : Ideal.ofBits .f32 0xFF800000#32 = (⊥ : EReal) := by
  simp [Ideal.ofBits, Ideal.ieee]

/-- The word `0x41000000` denotes the real number eight. -/
theorem ofBits_eight : Ideal.ofBits .f32 0x41000000#32 = ((8 : ℝ) : EReal) := by
  simp [Ideal.ofBits, Ideal.ieee, -EReal.coe_mul]; norm_num

/-- The word `0x3E000000` denotes the real number one eighth. -/
theorem ofBits_eighth : Ideal.ofBits .f32 0x3E000000#32 = ((1 / 8 : ℝ) : EReal) := by
  simp [Ideal.ofBits, Ideal.ieee, -EReal.coe_mul]; norm_num

/-- The exact quotient by eight is the product with one eighth, on every extended real (the infinities included). -/
theorem div_eight (x : EReal) :
    Ideal.div x (Ideal.ofBits .f32 0x41000000#32) = x * Ideal.ofBits .f32 0x3E000000#32 := by
  rw [ofBits_eight, ofBits_eighth]
  exact Ideal.div_coe (by norm_num) x

/-- The larger of minus infinity and `x` is `x`. -/
theorem max_neg_inf (x : EReal) : max (Ideal.ofBits .f32 0xFF800000#32) x = x := by
  rw [ofBits_neg_inf]; exact max_bot_left x

end Cert.Attn

end
-- ==== Proof.ReferenceValue.lean ====
/-
  The reference's two results are the specification's functions of its arguments, index by index.

  Read one operation at a time, the reference computes at (b, i, j): the scores as the contraction over the head
  dimension divided by eight (the product with one eighth, on every extended real), minus infinity under the key mask;
  the row maximum from minus infinity (a second maximum with minus infinity changes nothing); the shifted exponentials,
  their row sum from zero, the quotient, zero under the query mask; and at (b, i, d) the contraction of the weights with the
  values over the keys. These are the specification's row functions at row (b, i) and batch element b.
-/
import proofs.«134398_j46308337386102_2_alg».proof.Proof.Gen.ReferenceIdeal.Read
import proofs.«134398_j46308337386102_2_alg».proof.Proof.Spec
import proofs.«134398_j46308337386102_2_alg».proof.Proof.Consts
import proofs.«134398_j46308337386102_2_alg».proof.Proof.LibLastAxis3

noncomputable section

namespace Cert.ReferenceIdeal.RefValue

open Cert.ReferenceIdeal Cert.ReferenceIdeal.Gen Cert.ReferenceIdeal.Read Idealize.ShloMosaic Idealize.ShloMosaic.ValueIdx
  Idealize.ShloMosaic.LastAxis3 Cert.Attn

variable (x0 x1 x2 : (⟨S128x512x64, .f32⟩ : BufTy).Contents (Elt Ideal)) (x3 x4 : (⟨S128x512x512, .i1⟩ : BufTy).Contents (Elt Ideal))

/-- The masked scores at (b, i, j): the specification's row scores. -/
theorem scores_apply (b : Fin 128) (i j : Fin 512) :
    val_main_v3 (F := Ideal) x0 x1 x3 (ix3 b i j)
      = scoreRow (fun d => x0 (ix3 b i d)) (fun j' d => x1 (ix3 b j' d)) (fun j' => x3 (ix3 b i j')) j := by
  have el : ∀ k, lidx_main_v0 (ix3 b i j) k = ix3 b i k := fun k => funext fun a => by
    match a with | ⟨0, _⟩ => rfl | ⟨1, _⟩ => rfl | ⟨2, _⟩ => rfl
  have er : ∀ k, ridx_main_v0 (ix3 b i j) k = ix3 b j k := fun k => funext fun a => by
    match a with | ⟨0, _⟩ => rfl | ⟨1, _⟩ => rfl | ⟨2, _⟩ => rfl
  rw [val_main_v3_apply, val_main_call0_v1_apply, val_main_call0_v0_apply, val_main_cst_0_apply, val_main_v2_apply,
    val_main_v0_apply, val_main_v1_apply, val_main_cst_apply]
  simp only [el, er, Ideal.hostDivf_def, Ideal.ofBits_def, div_eight]
  rfl

/-- The row maximum spread over the keys, at (b, i, j): the specification's row maximum of the scores' row (b, i). -/
theorem max_apply (b : Fin 128) (i j : Fin 512) :
    val_main_v8 (F := Ideal) x0 x1 x3 (ix3 b i j) = rowMax (fun j' => val_main_v3 (F := Ideal) x0 x1 x3 (ix3 b i j')) := by
  have e8 : idx_main_v8 (ix3 b i j) = ix3 b i (0 : Fin 1) := funext fun a => by
    match a with | ⟨0, _⟩ => rfl | ⟨1, _⟩ => rfl | ⟨2, _⟩ => rfl
  have e7 : idx_main_v7 (ix3 b i (0 : Fin 1)) = ix2 b i := funext fun a => by
    match a with | ⟨0, _⟩ => rfl | ⟨1, _⟩ => rfl
  rw [val_main_v8_apply, e8, val_main_v7_apply, e7, val_main_v6_apply, val_main_v5_apply, val_main_cst_2_apply]
  unfold val_main_v4
  rw [hostReduce_maximumf_last_apply (h := by decide)]
  rw [Ideal.maximumf_def, Ideal.ofBits_def, max_neg_inf]
  rfl

/-- The shifted exponential at (b, i, j). -/
theorem exp_apply (b : Fin 128) (i j : Fin 512) :
    val_main_v10 (F := Ideal) x0 x1 x3 (ix3 b i j)
      = Ideal.exp (val_main_v3 (F := Ideal) x0 x1 x3 (ix3 b i j) - rowMax (fun j' => val_main_v3 (F := Ideal) x0 x1 x3 (ix3 b i j'))) := by
  rw [val_main_v10_apply, val_main_v9_apply, max_apply]
  rfl

/-- The row sum spread over the keys, at (b, i, j): the sum of the shifted exponentials over row (b, i). -/
theorem sum_apply (b : Fin 128) (i j : Fin 512) :
    val_main_v13 (F := Ideal) x0 x1 x3 (ix3 b i j) = ∑ j' : Fin 512, val_main_v10 (F := Ideal) x0 x1 x3 (ix3 b i j') := by
  have e13 : idx_main_v13 (ix3 b i j) = ix3 b i (0 : Fin 1) := funext fun a => by
    match a with | ⟨0, _⟩ => rfl | ⟨1, _⟩ => rfl | ⟨2, _⟩ => rfl
  have e12 : idx_main_v12 (ix3 b i (0 : Fin 1)) = ix2 b i := funext fun a => by
    match a with | ⟨0, _⟩ => rfl | ⟨1, _⟩ => rfl
  have e11 : ∀ k, idx_main_v11 (ix2 b i) k = ix3 b i k := fun k => funext fun a => by
    match a with | ⟨0, _⟩ => rfl | ⟨1, _⟩ => rfl | ⟨2, _⟩ => rfl
  rw [val_main_v13_apply, e13, val_main_v12_apply, e12, val_main_v11_apply, val_main_cst_3_apply]
  simp only [e11, Ideal.ofBits_def, Ideal.ofBits_zero_f32, zero_add]

/-- The weights at (b, i, j): the specification's row weights of the scores' row (b, i). -/
theorem weights_apply (b : Fin 128) (i j : Fin 512) :
    val_main_v15 (F := Ideal) x0 x1 x3 x4 (ix3 b i j)
      = softRow (fun j' => val_main_v3 (F := Ideal) x0 x1 x3 (ix3 b i j')) (fun j' => x4 (ix3 b i j')) j := by
  rw [val_main_v15_apply, val_main_call1_v1_apply, val_main_call1_v0_apply, val_main_cst_4_apply, val_main_v14_apply,
    sum_apply, exp_apply]
  unfold softRow
  refine congrArg (fun z => Scalar.select _ _ (Ideal.div _ z)) (Finset.sum_congr rfl fun j' _ => ?_)
  exact exp_apply x0 x1 x3 b i j'

/-- THE REFERENCE'S WEIGHTS are the specification's, as whole arrays. -/
theorem attn_eq : val_main_v15 (F := Ideal) x0 x1 x3 x4 = attnG x0 x1 x3 x4 := by
  funext idx
  obtain ⟨b, i, j, rfl⟩ : ∃ (b : Fin 128) (i j : Fin 512), idx = ix3 b i j := ⟨idx 0, idx 1, idx 2, eq_ix3 idx⟩
  rw [weights_apply]
  unfold attnG attnRow
  exact congrArg (fun s => softRow s _ j) (funext fun j' => scores_apply x0 x1 x3 b i j')

/-- THE REFERENCE'S OUTPUT is the specification's, as whole arrays. -/
theorem out_eq : val_main_v16 (F := Ideal) x0 x1 x2 x3 x4 = outG x0 x1 x2 x3 x4 := by
  funext idx
  obtain ⟨b, i, d, rfl⟩ : ∃ (b : Fin 128) (i : Fin 512) (d : Fin 64), idx = ix3 b i d := ⟨idx 0, idx 1, idx 2, eq_ix3 idx⟩
  have el : ∀ k, lidx_main_v16 (ix3 b i d) k = ix3 b i k := fun k => funext fun a => by
    match a with | ⟨0, _⟩ => rfl | ⟨1, _⟩ => rfl | ⟨2, _⟩ => rfl
  have er : ∀ k, ridx_main_v16 (ix3 b i d) k = ix3 b k d := fun k => funext fun a => by
    match a with | ⟨0, _⟩ => rfl | ⟨1, _⟩ => rfl | ⟨2, _⟩ => rfl
  rw [val_main_v16_apply, attn_eq]
  simp only [el, er]
  rfl

end Cert.ReferenceIdeal.RefValue

end
-- ==== Proof.lean ====
/-
  Masked scaled-dot-product attention over 128 batch elements, 512 queries, 512 keys and a head dimension of 64: the
  kernel (a grid of 64 points, two batch elements per point, both matrix products and the masked softmax in one body)
  against the reference (two contractions and a softmax on the host), at the exact extended reals.

  Both programs compute, for every query row, the same function of that row, of its batch element's keys and values and of
  the two masks' rows (Proof/Spec.lean): the kernel one block of two batch elements at a time (Proof/KernelBlock.lean: the
  body's result on a block, entry by entry; Proof/KernelArrays.lean: the 64 blocks tile the two result arrays), the
  reference on the whole arrays (Proof/ReferenceValue.lean). They differ in spelling only: the kernel multiplies the scores
  by one eighth where the reference divides by eight (one number on every extended real, Proof/Consts.lean), the reference
  takes a second maximum with minus infinity, starts its row sum from a zero it adds, and reads the one-bit masks directly
  where the kernel reads "the widened word is not zero". Every sum is the same sum over the same index set and the rest is
  operation for operation the same, so no input needs to be finite: the precondition is never opened.

  The three frames are the generated ones (the reference's is its generated run with the results dropped); the kernel's
  idealization rewrote nothing, so there is nothing to preserve.
-/
import proofs.«134398_j46308337386102_2_alg».proof.Defs
import proofs.«134398_j46308337386102_2_alg».proof.Proof.Gen.Kernel
import proofs.«134398_j46308337386102_2_alg».proof.Proof.Gen.Kernel.Frame
import proofs.«134398_j46308337386102_2_alg».proof.Proof.Gen.KernelIdeal
import proofs.«134398_j46308337386102_2_alg».proof.Proof.Gen.KernelIdeal.Frame
import proofs.«134398_j46308337386102_2_alg».proof.Proof.Gen.ReferenceIdeal
import proofs.«134398_j46308337386102_2_alg».proof.Proof.Gen.Pre_finite_inputs
import proofs.«134398_j46308337386102_2_alg».proof.Proof.Gen.KernelIdeal.Value
import proofs.«134398_j46308337386102_2_alg».proof.Proof.Gen.ReferenceIdeal.Run
import proofs.«134398_j46308337386102_2_alg».proof.Proof.Gen.ReferenceIdeal.Read
import proofs.«134398_j46308337386102_2_alg».proof.Proof.KernelArrays
import proofs.«134398_j46308337386102_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the output array and the weights array at the
    specification's functions of those arguments. -/
theorem algebraic : Cert.algebraic_KernelIdeal_ReferenceIdeal := by
  intro m ρ m' ρ' _ hagree
  refine ⟨fun c => Cert.KernelIdeal.Arrays.outputA m c, fun c => Cert.KernelIdeal.Arrays.weightsA m c,
    Cert.KernelIdeal.Arrays.run m ρ, ?_⟩
  refine (θ_run Cert.ReferenceIdeal.defs _ _).mono (fun _ h c => ?_) (Cert.ReferenceIdeal.Value.run (F := Ideal) m' ρ')
  obtain ⟨hout, hweights, hargs⟩ := h c
  obtain ⟨a0, a1, a2, a3, a4⟩ := hagree c
  refine ⟨hout.trans ((Cert.ReferenceIdeal.Read.val_main_v16_eq _ _ _ _ _).trans ?_),
    hweights.trans ((Cert.ReferenceIdeal.Read.val_main_v15_eq _ _ _ _).trans ?_), hargs⟩
  · rw [Cert.ReferenceIdeal.RefValue.out_eq, a0, a1, a2, a3, a4]
  · rw [Cert.ReferenceIdeal.RefValue.attn_eq, a0, a1, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
